-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x480x640 : Shape := ⟨4, ![64, 1, 480, 640]⟩
abbrev S64x8192 : Shape := ⟨2, ![64, 8192]⟩
abbrev S_ : Shape := ⟨0, ![]⟩

class Facts : Prop where
  bcast_S_S64x1x480x640 : S_.BroadcastsInDim S64x1x480x640 (![] : Fin 0 → Fin S64x1x480x640.rank)
  reducesTo_S64x1x480x640_S_d0_1_2_3 : S64x1x480x640.ReducesTo [0, 1, 2, 3] S_
  h_S_ : 0 < S_.numel

variable [Facts]

def fn {F : FTy → Type} [FloatOps F] (main_arg0 : FVec F S64x1x480x640 .f32) (main_arg1 : IVec S64x8192 32) (main_arg2 : IVec S64x8192 32) (main_arg3 : IVec S64x8192 32) (main_arg4 : IVec S64x8192 32) (main_arg5 : IVec S64x8192 32) : IVec S_ 1 :=
  let main_v0 : FVec F S64x1x480x640 .f32 := Host.absf main_arg0
  let main_cst : FVec F S_ .f32 := constant S_ .f32 0x7F800000#32
  let main_v1 : FVec F S64x1x480x640 .f32 := broadcastInDim S64x1x480x640 ![] bcast_S_S64x1x480x640 main_cst
  let main_v2 : IVec S64x1x480x640 1 := cmpf .olt main_v0 main_v1
  let main_c : IVec S_ 1 := constantI S_ 1 1#1
  let main_v3 : IVec S_ 1 := (fun x v => Host.reduce IntOp.andi x v reducesTo_S64x1x480x640_S_d0_1_2_3 h_S_) main_v2 main_c
  main_v3
-- ==== Kernel.lean ====
abbrev S64x1x480x640 : Shape := ⟨4, ![64, 1, 480, 640]⟩
abbrev S64x8192 : Shape := ⟨2, ![64, 8192]⟩
abbrev S64x480x640 : Shape := ⟨3, ![64, 480, 640]⟩
abbrev S64x307200 : Shape := ⟨2, ![64, 307200]⟩
abbrev S_ : Shape := ⟨0, ![]⟩
abbrev S64x8192x1 : Shape := ⟨3, ![64, 8192, 1]⟩
abbrev S1 : Shape := ⟨1, ![1]⟩
abbrev S1x1x1 : Shape := ⟨3, ![1, 1, 1]⟩
abbrev S64x1 : Shape := ⟨2, ![64, 1]⟩
abbrev S16x8192 : Shape := ⟨2, ![16, 8192]⟩
abbrev S16x1 : Shape := ⟨2, ![16, 1]⟩
abbrev S16 : Shape := ⟨1, ![16]⟩
abbrev S64 : Shape := ⟨1, ![64]⟩

abbrev nBuf : Space → Nat
  | .hbm => 66
  | .vmem => 8
  | .smem => 0
  | _ => 0

abbrev bufTy : (tb : Table) → Fin (tcTables nBuf tb) → BufTy
  | .hbm, ⟨0, _⟩ => ⟨S64x1x480x640, .f32⟩
  | .hbm, ⟨1, _⟩ => ⟨S64x8192, .i32⟩
  | .hbm, ⟨2, _⟩ => ⟨S64x8192, .i32⟩
  | .hbm, ⟨3, _⟩ => ⟨S64x8192, .i32⟩
  | .hbm, ⟨4, _⟩ => ⟨S64x8192, .i32⟩
  | .hbm, ⟨5, _⟩ => ⟨S64x8192, .i32⟩
  | .hbm, ⟨6, _⟩ => ⟨S64x480x640, .f32⟩
  | .hbm, ⟨7, _⟩ => ⟨S64x307200, .f32⟩
  | .hbm, ⟨8, _⟩ => ⟨S_, .i32⟩
  | .hbm, ⟨9, _⟩ => ⟨S64x8192, .i32⟩
  | .hbm, ⟨10, _⟩ => ⟨S64x8192, .i32⟩
  | .hbm, ⟨11, _⟩ => ⟨S64x8192, .i32⟩
  | .hbm, ⟨12, _⟩ => ⟨S_, .i32⟩
  | .hbm, ⟨13, _⟩ => ⟨S64x8192, .i32⟩
  | .hbm, ⟨14, _⟩ => ⟨S64x8192, .i32⟩
  | .hbm, ⟨15, _⟩ => ⟨S64x8192, .i32⟩
  | .hbm, ⟨16, _⟩ => ⟨S_, .i32⟩
  | .hbm, ⟨17, _⟩ => ⟨S64x8192, .i32⟩
  | .hbm, ⟨18, _⟩ => ⟨S64x8192, .i1⟩
  | .hbm, ⟨19, _⟩ => ⟨S_, .i32⟩
  | .hbm, ⟨20, _⟩ => ⟨S64x8192, .i32⟩
  | .hbm, ⟨21, _⟩ => ⟨S64x8192, .i32⟩
  | .hbm, ⟨22, _⟩ => ⟨S64x8192, .i32⟩
  | .hbm, ⟨23, _⟩ => ⟨S64x8192x1, .i32⟩
  | .hbm, ⟨24, _⟩ => ⟨S1, .i32⟩
  | .hbm, ⟨25, _⟩ => ⟨S_, .i32⟩
  | .hbm, ⟨26, _⟩ => ⟨S64x8192x1, .i32⟩
  | .hbm, ⟨27, _⟩ => ⟨S64x8192x1, .i1⟩
  | .hbm, ⟨28, _⟩ => ⟨S1x1x1, .i32⟩
  | .hbm, ⟨29, _⟩ => ⟨S64x8192x1, .i32⟩
  | .hbm, ⟨30, _⟩ => ⟨S64x8192x1, .i1⟩
  | .hbm, ⟨31, _⟩ => ⟨S64x8192x1, .i1⟩
  | .hbm, ⟨32, _⟩ => ⟨S_, .i1⟩
  | .hbm, ⟨33, _⟩ => ⟨S64x8192, .i1⟩
  | .hbm, ⟨34, _⟩ => ⟨S64x8192, .f32⟩
  | .hbm, ⟨35, _⟩ => ⟨S_, .f32⟩
  | .hbm, ⟨36, _⟩ => ⟨S64x8192, .f32⟩
  | .hbm, ⟨37, _⟩ => ⟨S64x8192, .f32⟩
  | .hbm, ⟨38, _⟩ => ⟨S_, .i32⟩
  | .hbm, ⟨39, _⟩ => ⟨S64x8192, .i32⟩
  | .hbm, ⟨40, _⟩ => ⟨S64x8192, .i1⟩
  | .hbm, ⟨41, _⟩ => ⟨S_, .i32⟩
  | .hbm, ⟨42, _⟩ => ⟨S64x8192, .i32⟩
  | .hbm, ⟨43, _⟩ => ⟨S64x8192, .i32⟩
  | .hbm, ⟨44, _⟩ => ⟨S64x8192, .i32⟩
  | .hbm, ⟨45, _⟩ => ⟨S64x8192x1, .i32⟩
  | .hbm, ⟨46, _⟩ => ⟨S1, .i32⟩
  | .hbm, ⟨47, _⟩ => ⟨S_, .i32⟩
  | .hbm, ⟨48, _⟩ => ⟨S64x8192x1, .i32⟩
  | .hbm, ⟨49, _⟩ => ⟨S64x8192x1, .i1⟩
  | .hbm, ⟨50, _⟩ => ⟨S1x1x1, .i32⟩
  | .hbm, ⟨51, _⟩ => ⟨S64x8192x1, .i32⟩
  | .hbm, ⟨52, _⟩ => ⟨S64x8192x1, .i1⟩
  | .hbm, ⟨53, _⟩ => ⟨S64x8192x1, .i1⟩
  | .hbm, ⟨54, _⟩ => ⟨S_, .i1⟩
  | .hbm, ⟨55, _⟩ => ⟨S64x8192, .i1⟩
  | .hbm, ⟨56, _⟩ => ⟨S64x8192, .f32⟩
  | .hbm, ⟨57, _⟩ => ⟨S_, .f32⟩
  | .hbm, ⟨58, _⟩ => ⟨S64x8192, .f32⟩
  | .hbm, ⟨59, _⟩ => ⟨S64x8192, .f32⟩
  | .hbm, ⟨60, _⟩ => ⟨S64x1, .f32⟩
  | .hbm, ⟨61, _⟩ => ⟨S64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S16x8192, .f32⟩
  | .local _ .vmem, ⟨1, _⟩ => ⟨S16x8192, .f32⟩
  | .local _ .vmem, ⟨2, _⟩ => ⟨S16x8192, .f32⟩
  | .local _ .vmem, ⟨3, _⟩ => ⟨S16x8192, .f32⟩
  | .local _ .vmem, ⟨4, _⟩ => ⟨S16x8192, .i32⟩
  | .local _ .vmem, ⟨5, _⟩ => ⟨S16x8192, .i32⟩
  | .local _ .vmem, ⟨6, _⟩ => ⟨S16x1, .f32⟩
  | .local _ .vmem, ⟨7, _⟩ => ⟨S16x1, .f32⟩
  | _, _ => ⟨S64x1x480x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_cst : Ref sig .tc := ⟨.hbm, 35, rfl⟩
abbrev main_call0_v14 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_v12 : Ref sig .tc := ⟨.hbm, 63, rfl⟩
abbrev main_cst_1 : Ref sig .tc := ⟨.hbm, 64, rfl⟩
abbrev main_v13 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x1x480x640_S64x480x640 : S64x1x480x640.ShapeCasts S64x480x640
  shapeCasts_S64x480x640_S64x307200 : S64x480x640.ShapeCasts S64x307200
  bcast_S_S64x8192 : S_.BroadcastsInDim S64x8192 (![] : Fin 0 → Fin S64x8192.rank)
  shapeCasts_S64x8192_S64x8192x1 : S64x8192.ShapeCasts S64x8192x1
  bcast_S_S64x8192x1 : S_.BroadcastsInDim S64x8192x1 (![] : Fin 0 → Fin S64x8192x1.rank)
  bcast_S1_S1x1x1_2 : S1.BroadcastsInDim S1x1x1 (![2] : Fin 1 → Fin S1x1x1.rank)
  bcast_S1x1x1_S64x8192x1_0_1_2 : S1x1x1.BroadcastsInDim S64x8192x1 (![0, 1, 2] : Fin 3 → Fin S64x8192x1.rank)
  reducesTo_S64x8192x1_S64x8192_d2 : S64x8192x1.ReducesTo [2] S64x8192
  h_S_ : 0 < S_.numel
  inb_S16x8192_S16x8192_0_0 : ∀ a, (![0, 0] : Fin 2 → Nat) a + S16x8192.size a ≤ S16x8192.size a
  h_S16x8192 : 0 < S16x8192.numel
  shapeCasts_S16x8192_S16x8192 : S16x8192.ShapeCasts S16x8192
  natLt_1_32 : 1 < 32
  reduces_S16x8192_S16 : S16x8192.Reduces [1] S16
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S64x1_S64 : S64x1.ShapeCasts S64
  reducesTo_S64_S_d0 : S64.ReducesTo [0] S_
  gather_S64x307200_S64x8192x1_S64x8192_n_1_0_0_1_2_11_wf : GatherDims.WF S64x307200 S64x8192x1 S64x8192 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S64x8192.size a
  hwx0_0 : ∀ i : grid0.Coords, EltTy.bits .f32 = 32 ∨ (Rect.block (s := S64x8192) S16x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8192.size a ≤ S64x8192.size a
  hwx0_1 : ∀ i : grid0.Coords, EltTy.bits .f32 = 32 ∨ (Rect.block (s := S64x8192) S16x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S64x8192.size a
  hwx0_2 : ∀ i : grid0.Coords, EltTy.bits .i32 = 32 ∨ (Rect.block (s := S64x8192) S16x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S64x1.size a
  hwx0_3 : ∀ i : grid0.Coords, EltTy.bits .f32 = 32 ∨ (Rect.block (s := S64x1) S16x1.size (cc0_transform_3 i) (hinb0_3 i)).WholeWords (EltTy.packing .f32)

variable [Facts₀]

def gather_S64x307200_S64x8192x1_S64x8192_n_1_0_0_1_2_11 : GatherDims S64x307200 S64x8192x1 S64x8192 where
  offsetDims := []
  collapsedSliceDims := [1]
  operandBatchingDims := [0]
  startIndicesBatchingDims := [0]
  startIndexMap := [1]
  indexVectorDim := 2
  sliceSizes := ![1, 1]
  wf := gather_S64x307200_S64x8192x1_S64x8192_n_1_0_0_1_2_11_wf

abbrev win0_0 : Pipeline.Window sig grid0 :=
  Pipeline.Window.ofSpec (Memref.whole main_v8) S16x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S16x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S16x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1x480x640 : Shape := ⟨4, ![64, 1, 480, 640]⟩
abbrev S64x8192 : Shape := ⟨2, ![64, 8192]⟩
abbrev S64x480x640 : Shape := ⟨3, ![64, 480, 640]⟩
abbrev S64x307200 : Shape := ⟨2, ![64, 307200]⟩
abbrev S_ : Shape := ⟨0, ![]⟩
abbrev S64x8192x1 : Shape := ⟨3, ![64, 8192, 1]⟩
abbrev S1 : Shape := ⟨1, ![1]⟩
abbrev S1x1x1 : Shape := ⟨3, ![1, 1, 1]⟩
abbrev S64 : Shape := ⟨1, ![64]⟩

abbrev nBuf : Space → Nat
  | .hbm => 117
  | .vmem => 0
  | .smem => 0
  | _ => 0

abbrev bufTy : (tb : Table) → Fin (tcTables nBuf tb) → BufTy
  | .hbm, ⟨0, _⟩ => ⟨S64x1x480x640, .f32⟩
  | .hbm, ⟨1, _⟩ => ⟨S64x8192, .i32⟩
  | .hbm, ⟨2, _⟩ => ⟨S64x8192, .i32⟩
  | .hbm, ⟨3, _⟩ => ⟨S64x8192, .i32⟩
  | .hbm, ⟨4, _⟩ => ⟨S64x8192, .i32⟩
  | .hbm, ⟨5, _⟩ => ⟨S64x8192, .i32⟩
  | .hbm, ⟨6, _⟩ => ⟨S64x480x640, .f32⟩
  | .hbm, ⟨7, _⟩ => ⟨S64x307200, .f32⟩
  | .hbm, ⟨8, _⟩ => ⟨S_, .i32⟩
  | .hbm, ⟨9, _⟩ => ⟨S64x8192, .i32⟩
  | .hbm, ⟨10, _⟩ => ⟨S64x8192, .i32⟩
  | .hbm, ⟨11, _⟩ => ⟨S64x8192, .i32⟩
  | .hbm, ⟨12, _⟩ => ⟨S_, .i32⟩
  | .hbm, ⟨13, _⟩ => ⟨S64x8192, .i32⟩
  | .hbm, ⟨14, _⟩ => ⟨S64x8192, .i1⟩
  | .hbm, ⟨15, _⟩ => ⟨S_, .i32⟩
  | .hbm, ⟨16, _⟩ => ⟨S64x8192, .i32⟩
  | .hbm, ⟨17, _⟩ => ⟨S64x8192, .i32⟩
  | .hbm, ⟨18, _⟩ => ⟨S64x8192, .i32⟩
  | .hbm, ⟨19, _⟩ => ⟨S64x8192x1, .i32⟩
  | .hbm, ⟨20, _⟩ => ⟨S1, .i32⟩
  | .hbm, ⟨21, _⟩ => ⟨S_, .i32⟩
  | .hbm, ⟨22, _⟩ => ⟨S64x8192x1, .i32⟩
  | .hbm, ⟨23, _⟩ => ⟨S64x8192x1, .i1⟩
  | .hbm, ⟨24, _⟩ => ⟨S1x1x1, .i32⟩
  | .hbm, ⟨25, _⟩ => ⟨S64x8192x1, .i32⟩
  | .hbm, ⟨26, _⟩ => ⟨S64x8192x1, .i1⟩
  | .hbm, ⟨27, _⟩ => ⟨S64x8192x1, .i1⟩
  | .hbm, ⟨28, _⟩ => ⟨S_, .i1⟩
  | .hbm, ⟨29, _⟩ => ⟨S64x8192, .i1⟩
  | .hbm, ⟨30, _⟩ => ⟨S64x8192, .f32⟩
  | .hbm, ⟨31, _⟩ => ⟨S_, .f32⟩
  | .hbm, ⟨32, _⟩ => ⟨S64x8192, .f32⟩
  | .hbm, ⟨33, _⟩ => ⟨S64x8192, .f32⟩
  | .hbm, ⟨34, _⟩ => ⟨S_, .i32⟩
  | .hbm, ⟨35, _⟩ => ⟨S64x8192, .i32⟩
  | .hbm, ⟨36, _⟩ => ⟨S64x8192, .i32⟩
  | .hbm, ⟨37, _⟩ => ⟨S64x8192, .i32⟩
  | .hbm, ⟨38, _⟩ => ⟨S_, .i32⟩
  | .hbm, ⟨39, _⟩ => ⟨S64x8192, .i32⟩
  | .hbm, ⟨40, _⟩ => ⟨S64x8192, .i1⟩
  | .hbm, ⟨41, _⟩ => ⟨S_, .i32⟩
  | .hbm, ⟨42, _⟩ => ⟨S64x8192, .i32⟩
  | .hbm, ⟨43, _⟩ => ⟨S64x8192, .i32⟩
  | .hbm, ⟨44, _⟩ => ⟨S64x8192, .i32⟩
  | .hbm, ⟨45, _⟩ => ⟨S64x8192x1, .i32⟩
  | .hbm, ⟨46, _⟩ => ⟨S1, .i32⟩
  | .hbm, ⟨47, _⟩ => ⟨S_, .i32⟩
  | .hbm, ⟨48, _⟩ => ⟨S64x8192x1, .i32⟩
  | .hbm, ⟨49, _⟩ => ⟨S64x8192x1, .i1⟩
  | .hbm, ⟨50, _⟩ => ⟨S1x1x1, .i32⟩
  | .hbm, ⟨51, _⟩ => ⟨S64x8192x1, .i32⟩
  | .hbm, ⟨52, _⟩ => ⟨S64x8192x1, .i1⟩
  | .hbm, ⟨53, _⟩ => ⟨S64x8192x1, .i1⟩
  | .hbm, ⟨54, _⟩ => ⟨S_, .i1⟩
  | .hbm, ⟨55, _⟩ => ⟨S64x8192, .i1⟩
  | .hbm, ⟨56, _⟩ => ⟨S64x8192, .f32⟩
  | .hbm, ⟨57, _⟩ => ⟨S_, .f32⟩
  | .hbm, ⟨58, _⟩ => ⟨S64x8192, .f32⟩
  | .hbm, ⟨59, _⟩ => ⟨S64x8192, .f32⟩
  | .hbm, ⟨60, _⟩ => ⟨S64x8192, .f32⟩
  | .hbm, ⟨61, _⟩ => ⟨S64x8192, .f32⟩
  | .hbm, ⟨62, _⟩ => ⟨S_, .i32⟩
  | .hbm, ⟨63, _⟩ => ⟨S64x8192, .i32⟩
  | .hbm, ⟨64, _⟩ => ⟨S64x8192, .i1⟩
  | .hbm, ⟨65, _⟩ => ⟨S_, .i32⟩
  | .hbm, ⟨66, _⟩ => ⟨S64x8192, .i32⟩
  | .hbm, ⟨67, _⟩ => ⟨S64x8192, .i1⟩
  | .hbm, ⟨68, _⟩ => ⟨S64x8192, .i1⟩
  | .hbm, ⟨69, _⟩ => ⟨S_, .i32⟩
  | .hbm, ⟨70, _⟩ => ⟨S64x8192, .i32⟩
  | .hbm, ⟨71, _⟩ => ⟨S64x8192, .i1⟩
  | .hbm, ⟨72, _⟩ => ⟨S64x8192, .i1⟩
  | .hbm, ⟨73, _⟩ => ⟨S64x8192, .f32⟩
  | .hbm, ⟨74, _⟩ => ⟨S64x8192, .f32⟩
  | .hbm, ⟨75, _⟩ => ⟨S_, .f32⟩
  | .hbm, ⟨76, _⟩ => ⟨S64x8192, .f32⟩
  | .hbm, ⟨77, _⟩ => ⟨S64x8192, .f32⟩
  | .hbm, ⟨78, _⟩ => ⟨S64x8192, .f32⟩
  | .hbm, ⟨79, _⟩ => ⟨S64x8192, .f32⟩
  | .hbm, ⟨80, _⟩ => ⟨S64x8192, .i1⟩
  | .hbm, ⟨81, _⟩ => ⟨S64x8192, .f32⟩
  | .hbm, ⟨82, _⟩ => ⟨S64x8192, .f32⟩
  | .hbm, ⟨83, _⟩ => ⟨S64x8192, .f32⟩
  | .hbm, ⟨84, _⟩ => ⟨S64x8192, .f32⟩
  | .hbm, ⟨85, _⟩ => ⟨S64x8192, .f32⟩
  | .hbm, ⟨86, _⟩ => ⟨S64x8192, .f32⟩
  | .hbm, ⟨87, _⟩ => ⟨S64x8192, .f32⟩
  | .hbm, ⟨88, _⟩ => ⟨S64x8192, .f32⟩
  | .hbm, ⟨89, _⟩ => ⟨S64x8192, .i32⟩
  | .hbm, ⟨90, _⟩ => ⟨S_, .i32⟩
  | .hbm, ⟨91, _⟩ => ⟨S64, .i32⟩
  | .hbm, ⟨92, _⟩ => ⟨S64, .f32⟩
  | .hbm, ⟨93, _⟩ => ⟨S64x8192, .i32⟩
  | .hbm, ⟨94, _⟩ => ⟨S_, .i32⟩
  | .hbm, ⟨95, _⟩ => ⟨S64, .i32⟩
  | .hbm, ⟨96, _⟩ => ⟨S64, .f32⟩
  | .hbm, ⟨97, _⟩ => ⟨S_, .f32⟩
  | .hbm, ⟨98, _⟩ => ⟨S_, .f32⟩
  | .hbm, ⟨99, _⟩ => ⟨S64x8192, .f32⟩
  | .hbm, ⟨100, _⟩ => ⟨S64x8192, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64x8192, .f32⟩
  | .hbm, ⟨105, _⟩ => ⟨S_, .f32⟩
  | .hbm, ⟨106, _⟩ => ⟨S_, .f32⟩
  | .hbm, ⟨107, _⟩ => ⟨S64x8192, .f32⟩
  | .hbm, ⟨108, _⟩ => ⟨S64x8192, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | _, _ => ⟨S64x1x480x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v5 : Ref sig .tc := ⟨.hbm, 33, rfl⟩
abbrev main_c_0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_cst : Ref sig .tc := ⟨.hbm, 57, rfl⟩
abbrev main_call1_v14 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_c_1 : Ref sig .tc := ⟨.hbm, 62, rfl⟩
abbrev main_v12 : Ref sig .tc := ⟨.hbm, 63, rfl⟩
abbrev main_v13 : Ref sig .tc := ⟨.hbm, 64, rfl⟩
abbrev main_c_2 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_c_3 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_call2_v5 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_v22 : Ref sig .tc := ⟨.hbm, 88, rfl⟩
abbrev main_v23 : Ref sig .tc := ⟨.hbm, 89, rfl⟩
abbrev main_c_4 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_c_5 : Ref sig .tc := ⟨.hbm, 94, rfl⟩
abbrev main_v27 : Ref sig .tc := ⟨.hbm, 95, rfl⟩
abbrev main_v28 : Ref sig .tc := ⟨.hbm, 96, rfl⟩
abbrev main_cst : Ref sig .tc := ⟨.hbm, 97, rfl⟩
abbrev main_call3_v0 : Ref sig .tc := ⟨.hbm, 98, rfl⟩
abbrev main_call3_v1 : Ref sig .tc := ⟨.hbm, 99, rfl⟩
abbrev main_v29 : Ref sig .tc := ⟨.hbm, 100, rfl⟩
abbrev main_cst_6 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_cst_7 : Ref sig .tc := ⟨.hbm, 105, rfl⟩
abbrev main_call4_v0 : Ref sig .tc := ⟨.hbm, 106, rfl⟩
abbrev main_call4_v1 : Ref sig .tc := ⟨.hbm, 107, rfl⟩
abbrev main_v33 : Ref sig .tc := ⟨.hbm, 108, rfl⟩
abbrev main_cst_8 : Ref sig .tc := ⟨.hbm, 109, rfl⟩
abbrev main_v34 : Ref sig .tc := ⟨.hbm, 110, rfl⟩
abbrev main_v35 : Ref sig .tc := ⟨.hbm, 111, rfl⟩
abbrev main_v36 : Ref sig .tc := ⟨.hbm, 112, rfl⟩
abbrev main_cst_9 : Ref sig .tc := ⟨.hbm, 113, rfl⟩
abbrev main_v37 : Ref sig .tc := ⟨.hbm, 114, rfl⟩
abbrev main_cst_10 : Ref sig .tc := ⟨.hbm, 115, rfl⟩
abbrev main_v38 : Ref sig .tc := ⟨.hbm, 116, rfl⟩

abbrev nD : Nat := 1
abbrev τ : Topo := Topo.v7x

variable {F : FTy → Type} [FloatOps F]

class Facts₀ : Prop where
  shapeCasts_S64x1x480x640_S64x480x640 : S64x1x480x640.ShapeCasts S64x480x640
  shapeCasts_S64x480x640_S64x307200 : S64x480x640.ShapeCasts S64x307200
  bcast_S_S64x8192 : S_.BroadcastsInDim S64x8192 (![] : Fin 0 → Fin S64x8192.rank)
  shapeCasts_S64x8192_S64x8192x1 : S64x8192.ShapeCasts S64x8192x1
  bcast_S_S64x8192x1 : S_.BroadcastsInDim S64x8192x1 (![] : Fin 0 → Fin S64x8192x1.rank)
  bcast_S1_S1x1x1_2 : S1.BroadcastsInDim S1x1x1 (![2] : Fin 1 → Fin S1x1x1.rank)
  bcast_S1x1x1_S64x8192x1_0_1_2 : S1x1x1.BroadcastsInDim S64x8192x1 (![0, 1, 2] : Fin 3 → Fin S64x8192x1.rank)
  reducesTo_S64x8192x1_S64x8192_d2 : S64x8192x1.ReducesTo [2] S64x8192
  h_S_ : 0 < S_.numel
  natLt_1_32 : 1 < 32
  reducesTo_S64x8192_S64_d1 : S64x8192.ReducesTo [1] S64
  reducesTo_S64_S_d0 : S64.ReducesTo [0] S_
  gather_S64x307200_S64x8192x1_S64x8192_n_1_0_0_1_2_11_wf : GatherDims.WF S64x307200 S64x8192x1 S64x8192 [] [1] [0] [1] [0] 2 ![1, 1]

variable [Facts₀]

def gather_S64x307200_S64x8192x1_S64x8192_n_1_0_0_1_2_11 : GatherDims S64x307200 S64x8192x1 S64x8192 where
  offsetDims := []
  collapsedSliceDims := [1]
  operandBatchingDims := [0]
  startIndicesBatchingDims := [0]
  startIndexMap := [1]
  indexVectorDim := 2
  sliceSizes := ![1, 1]
  wf := gather_S64x307200_S64x8192x1_S64x8192_n_1_0_0_1_2_11_wf

class Facts : Prop extends Facts₀ where

variable [Facts]
-- ==== Proof.Spec.lean ====
/-
  The ordinal depth loss of one image, as one function of its rows.

  An image carries 8192 pairs of pixels.  Pair p has the two depths za p, zb p read at its pixels and an ordinal
  label o p: 1 or -1 when one pixel is the nearer, 0 when the two are equally deep, 2 when the pair is to be
  ignored.  A ranked pair (label neither 0 nor 2) costs softplus (-t * (za - zb)), t the label as a number; an
  equal pair (label 0) costs (za - zb)^2.  The loss of the image is the mean cost of its ranked pairs plus the mean
  cost of its equal pairs; the loss of the batch is the mean over the 64 images.

  Two spellings of this function are compared elsewhere.  They differ in three places, each settled here on the
  extended reals:
    * 0 - x against -x  (true of every extended real, the infinities included);
    * the test d ≠ d, which is false of every extended real whichever of the two comparison predicates asks it, so
      that the guarded branch of the stable softplus is never taken (guardSub_zero, guardNeg_zero);
    * the number of ranked (or equal) pairs, once as the sum of the indicators 0.0 / 1.0 and once as the 32-bit
      integer sum of the indicators 0 / 1 read as a number: both are the cardinality of the set of such pairs, the
      second because 8192 is far below 2^31 and the sum cannot wrap (sum_indicator, toInt_fold_indicator).
  No step needs the depths to be finite.
-/
import Idealize.ShloMosaic.PureOps.Ideal.Laws
import Idealize.ShloMosaic.Lib.ValueIdx
import Idealize.ShloMosaic.Lib.IndicatorCount

noncomputable section

namespace Cert.DepthLoss

open Idealize.ShloMosaic Idealize.ShloMosaic.ValueIdx

/-! ## One pair -/

/-- A pair takes part unless its label is 2. -/
def valid (o : BitVec 32) : BitVec 1 := IntOp.cmpi .ne o 2#32
/-- A ranked pair: it takes part and its label is not 0. -/
def ranked (o : BitVec 32) : BitVec 1 := IntOp.andi (valid o) (IntOp.cmpi .ne o 0#32)
/-- An equal pair: it takes part and its label is 0. -/
def equal (o : BitVec 32) : BitVec 1 := IntOp.andi (valid o) (IntOp.cmpi .eq o 0#32)

/-- log (1 + e^x) in its stable form max x 0 + log1p (e^(-|x|)), with |x| written max x (-x). -/
def softplus (x : EReal) : EReal := max x 0 + Ideal.log1p (Ideal.exp (-(max x (-x))))

/-- The label as a number. -/
def label (o : BitVec 32) : EReal := ((o.toInt : ℝ) : EReal)

/-- What a ranked pair costs. -/
def rankCost (za zb : EReal) (o : BitVec 32) : EReal := softplus (-(label o) * (za - zb))
/-- What an equal pair costs. -/
def equalCost (za zb : EReal) : EReal := (za - zb) * (za - zb)

/-- d ≠ d is false on the extended reals, asked as ordered and different, -/
theorem cmp_one_self (d : EReal) : Ideal.cmp .one d d = 0#1 := by
  simp [Ideal.cmp]
/-- or as unordered or different: nothing is unordered. -/
theorem cmp_une_self (d : EReal) : Ideal.cmp .une d d = 0#1 := by
  simp [Ideal.cmp]

/-- The stable softplus as it is spelt with a guard for the case d ≠ d of d = x - z, z the word read as zero, and the
    negation of |d| written as a subtraction from z: the guard asks ordered and different. -/
def guardSub (z x : EReal) : EReal :=
  Scalar.select (Ideal.cmp .one (x - z) (x - z)) (x + z)
    (max x z + Ideal.log1p (Ideal.exp (z - max (x - z) (-(x - z)))))

/-- The same with the negation written as one and the guard asking unordered or different. -/
def guardNeg (z x : EReal) : EReal :=
  Scalar.select (Ideal.cmp .une (x - z) (x - z)) (x + z)
    (max x z + Ideal.log1p (Ideal.exp (-(max (x - z) (-(x - z))))))

/-- At z = 0 the guard is never taken and the first spelling is softplus. -/
theorem guardSub_zero (x : EReal) : guardSub 0 x = softplus x := by
  unfold guardSub; rw [cmp_one_self, select_zero, sub_zero, zero_sub]; rfl

/-- So is the second. -/
theorem guardNeg_zero (x : EReal) : guardNeg 0 x = softplus x := by
  unfold guardNeg; rw [cmp_une_self, select_zero, sub_zero]; rfl

/-- A ranked pair's cost in the first spelling: the label negated by subtraction from zero. -/
theorem rankCost_sub (za zb : EReal) (o : BitVec 32) : guardSub 0 ((0 - label o) * (za - zb)) = rankCost za zb o := by
  rw [guardSub_zero, zero_sub]; rfl

/-- And in the second. -/
theorem rankCost_neg (za zb : EReal) (o : BitVec 32) : guardNeg 0 (-(label o) * (za - zb)) = rankCost za zb o := by
  rw [guardNeg_zero]; rfl

/-! ## Counting pairs -/

/-- How many of the words b p are 1, as an extended real. -/
def count {ι : Type} [Fintype ι] (b : ι → BitVec 1) : EReal :=
  (((Finset.univ.filter fun p => b p = 1#1).card : ℝ) : EReal)

/-- A one-bit word widened to 32 bits and read as a signed number is 1 or 0. -/
theorem toInt_setWidth (b : BitVec 1) : (((b.setWidth 32).toInt : ℤ) : ℝ) = if b = 1#1 then 1 else 0 := by
  by_cases h : b = 1#1
  · subst h; rw [if_pos rfl]; norm_num [show ((1#1 : BitVec 1).setWidth 32).toInt = 1 from by decide]
  · rw [eq_zero_of_ne_one h, if_neg (by decide)]; norm_num [show ((0#1 : BitVec 1).setWidth 32).toInt = 0 from by decide]

/-- The real numbers embed in the extended reals additively, over a finite sum too. -/
theorem coe_sum {ι : Type} (s : Finset ι) (f : ι → ℝ) : ((∑ p ∈ s, f p : ℝ) : EReal) = ∑ p ∈ s, (f p : EReal) := by
  classical
  induction s using Finset.induction_on with
  | empty => simp
  | insert a s ha ih => rw [Finset.sum_insert ha, Finset.sum_insert ha, EReal.coe_add, ih]

/-- The sum of the indicators, each read as a number, is the count. -/
theorem sum_indicator {ι : Type} [Fintype ι] (b : ι → BitVec 1) :
    ∑ p, (((((b p).setWidth 32).toInt : ℤ) : ℝ) : EReal) = count b := by
  unfold count
  rw [← coe_sum, Finset.card_filter]
  congr 1
  push_cast
  exact Finset.sum_congr rfl fun p _ => toInt_setWidth (b p)

/-- The 32-bit integer sum of fewer than 2^31 indicators, read as a signed number, is the count: it cannot wrap. -/
theorem toInt_fold_indicator {ι : Type} [Fintype ι] (hι : Fintype.card ι < 2 ^ 31) (b : ι → BitVec 1) :
    (((((Finset.univ : Finset ι).fold IntOp.addi (0#32) (fun p => (b p).setWidth 32)).toInt : ℤ) : ℝ) : EReal) = count b := by
  unfold count
  rw [IndicatorCount.fold_addi_setWidth_eq_card]
  have hle : (Finset.univ.filter fun p => b p = 1#1).card ≤ Fintype.card ι := Finset.card_le_univ _
  have hlt : (Finset.univ.filter fun p => b p = 1#1).card < 2 ^ 31 := lt_of_le_of_lt hle hι
  generalize (Finset.univ.filter fun p => b p = 1#1).card = N at hlt ⊢
  have h31 : (2 : ℕ) ^ 31 = 2147483648 := by norm_num
  have h32 : (2 : ℕ) ^ 32 = 4294967296 := by norm_num
  rw [h31] at hlt
  have hN : (BitVec.ofNat 32 N).toNat = N := by
    rw [BitVec.toNat_ofNat, h32]; exact Nat.mod_eq_of_lt (by omega)
  have e : (BitVec.ofNat 32 N).toInt = (N : ℤ) := by
    rw [BitVec.toInt_eq_toNat_of_lt (by rw [hN, h32]; omega), hN]
  rw [e]
  norm_cast

/-! ## One image -/

/-- The loss of one image from its two rows of depths and its row of labels: the mean cost of its ranked pairs plus
    the mean cost of its equal pairs (each sum started from zero, as both spellings start it). -/
def rowLoss (za zb : Fin 8192 → EReal) (o : Fin 8192 → BitVec 32) : EReal :=
  Ideal.div (0 + ∑ p, Scalar.select (ranked (o p)) (rankCost (za p) (zb p) (o p)) 0) (count fun p => ranked (o p))
    + Ideal.div (0 + ∑ p, Scalar.select (equal (o p)) (equalCost (za p) (zb p)) 0) (count fun p => equal (o p))

end Cert.DepthLoss

end
-- ==== Proof.LibKeepdims.lean ====
/-
  A row statistic kept as a column: reading, at an index given by coordinates, a vector cast to a one-column matrix and
  a one-column matrix broadcast along its rows.  (The library reads the leading-unit-axis casts and the one-row
  broadcast the same way; these are the column forms a sum with kept dimensions produces.)
-/
import Idealize.ShloMosaic.Lib.ValueLayout

namespace Cert.LibKeepdims

open Idealize.ShloMosaic Idealize.ShloMosaic.ValueIdx

variable {α : Type}

/-- An `[a]` vector cast to the column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelRow.lean ====
/-
  One row of one block.  At a grid point the kernel body loads three 16 x 8192 blocks (the depths at the first pixels,
  the depths at the second pixels, the labels) and stores a 16 x 1 block.  Here: the entry of row q of the stored
  block is the loss of one image (rowLoss of the Spec) computed from rows q of the three loaded blocks.

  The body's arithmetic is the generated payloads: the difference of depths (pay2), the two masks (pay4: ranked,
  pay5: equal), the two counts as lane sums of the masks cast to floats and kept as a column (pay6, pay7), the lane
  sum of the ranked costs (pay8), and the last step (pay1): the lane sum of the equal costs, the two quotients and
  their sum.  A lane sum over the 8192 lanes of row q is the sum over p of the entries (q, p); a 16-vector kept as a
  16 x 1 column reads at (q, 0) what the vector holds at q.
-/
import proofs.«129835_j20074677141934_1_alg».proof.Proof.Gen.KernelIdeal.Frame
import proofs.«129835_j20074677141934_1_alg».proof.Proof.Spec
import proofs.«129835_j20074677141934_1_alg».proof.Proof.LibKeepdims
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Cert.DepthLoss Idealize.ShloMosaic Idealize.ShloMosaic.ValueIdx

theorem hz : (![0, 0] : Fin 2 → Nat) = fun _ => 0 := funext fun a => by fin_cases a <;> rfl

/-- The sum over the lanes of row q. -/
theorem laneSum (v : FVec Ideal S16x8192 .f32) (h : S16x8192.Reduces [1] S16) (hφ : FKind.Formats .f32)
    (hacc : (0x00000000#32 : BitVec 32) = 0x00000000#32) (q : Fin 16) :
    multiReduction .add [1] S16 v 0x00000000#32 h hφ hacc (ix1 q) = ∑ p : Fin 8192, v (ix2 q p) :=
  (Ideal.multiReduction_add_single v 0x00000000#32 h hφ hacc (ix1 q)).trans
    (Finset.sum_congr rfl fun p _ => congrArg v (funext fun a => Fin.ext (by match a with | ⟨0, _⟩ => rfl | ⟨1, _⟩ => rfl)))

/-- The difference of the two depths. -/
theorem pay2_eq (x0 x1 : Vec Ideal S16x8192 .f32) : k0_pay2 (F := Ideal) x0 x1 = subf x0 x1 := by
  unfold k0_pay2
  simp only [shapeCast_self]

/-- The mask of the ranked pairs, and of the equal pairs. -/
theorem pay4_apply (x2 : Vec Ideal S16x8192 .i32) (i : S16x8192.Idx) : k0_pay4 (F := Ideal) x2 i = ranked (x2 i) := rfl
theorem pay5_apply (x2 : Vec Ideal S16x8192 .i32) (i : S16x8192.Idx) : k0_pay5 (F := Ideal) x2 i = equal (x2 i) := rfl

/-- The number of ranked pairs of row q, kept as a column. -/
theorem pay6_apply (x2 : Vec Ideal S16x8192 .i32) (q : Fin 16) (u : Fin 1) :
    k0_pay6 (F := Ideal) x2 (ix2 q u) = count fun p : Fin 8192 => ranked (x2 (ix2 q p)) := by
  unfold k0_pay6
  refine (LibKeepdims.shapeCast_a_a1_apply _ _ q u).trans ?_
  refine (laneSum _ _ _ _ q).trans ?_
  exact sum_indicator fun p : Fin 8192 => ranked (x2 (ix2 q p))

/-- The number of equal pairs of row q, kept as a column. -/
theorem pay7_apply (x2 : Vec Ideal S16x8192 .i32) (q : Fin 16) (u : Fin 1) :
    k0_pay7 (F := Ideal) x2 (ix2 q u) = count fun p : Fin 8192 => equal (x2 (ix2 q p)) := by
  unfold k0_pay7
  refine (LibKeepdims.shapeCast_a_a1_apply _ _ q u).trans ?_
  refine (laneSum _ _ _ _ q).trans ?_
  exact sum_indicator fun p : Fin 8192 => equal (x2 (ix2 q p))

/-- The sum over row q of the ranked pairs' costs. -/
theorem pay8_apply (x0 x1 : Vec Ideal S16x8192 .f32) (x2 : Vec Ideal S16x8192 .i32) (q : Fin 16) :
    k0_pay8 (F := Ideal) x0 x1 x2 (ix1 q)
      = ∑ p : Fin 8192, Scalar.select (ranked (x2 (ix2 q p))) (rankCost (x0 (ix2 q p)) (x1 (ix2 q p)) (x2 (ix2 q p))) 0 := by
  unfold k0_pay8
  rw [pay2_eq]
  refine (laneSum _ _ _ _ q).trans (Finset.sum_congr rfl fun p _ => ?_)
  show Scalar.select (ranked (x2 (ix2 q p)))
      (guardSub (Ideal.ofBits .f32 0x00000000#32)
        ((Ideal.ofBits .f32 0x00000000#32 - label (x2 (ix2 q p))) * (x0 (ix2 q p) - x1 (ix2 q p))))
      (Ideal.ofBits .f32 0x00000000#32) = _
  rw [Ideal.ofBits_zero_f32, rankCost_sub]

/-- The sum over row q of the equal pairs' costs. -/
theorem equalSum (x0 x1 : Vec Ideal S16x8192 .f32) (x2 : Vec Ideal S16x8192 .i32) (h : S16x8192.Reduces [1] S16)
    (hφ : FKind.Formats .f32) (hacc : (0x00000000#32 : BitVec 32) = 0x00000000#32) (q : Fin 16) :
    multiReduction .add [1] S16 (select (k0_pay5 (F := Ideal) x2) (mulf (subf x0 x1) (subf x0 x1))
        (broadcast S16x8192 (FloatOps.ofBits (F := Ideal) .f32 0x00000000#32))) 0x00000000#32 h hφ hacc (ix1 q)
      = ∑ p : Fin 8192, Scalar.select (equal (x2 (ix2 q p))) (equalCost (x0 (ix2 q p)) (x1 (ix2 q p))) 0 := by
  refine (laneSum _ _ _ _ q).trans (Finset.sum_congr rfl fun p _ => ?_)
  show Scalar.select (equal (x2 (ix2 q p))) (equalCost (x0 (ix2 q p)) (x1 (ix2 q p))) (Ideal.ofBits .f32 0x00000000#32) = _
  rw [Ideal.ofBits_zero_f32]

/-- Row q of the stored block is the loss of the image whose rows are rows q of the loaded blocks. -/
theorem out_row (x0 x1 : Vec Ideal S16x8192 .f32) (x2 : Vec Ideal S16x8192 .i32) (q : Fin 16) (u : Fin 1) :
    out0_3 (F := Ideal) x0 x1 x2 (ix2 q u)
      = rowLoss (fun p => x0 (ix2 q p)) (fun p => x1 (ix2 q p)) (fun p => x2 (ix2 q p)) := by
  unfold out0_3
  rw [View.canon_unit_zero hz]
  simp only [View.ld_unit_zero (S := S16x8192) hz]
  unfold k0_pay1
  rw [pay2_eq]
  unfold rowLoss
  show Ideal.div (shapeCast S16x1 (k0_pay8 x0 x1 x2) shapeCasts_S16_S16x1 (ix2 q u)) (k0_pay6 x2 (ix2 q u))
      + Ideal.div (shapeCast S16x1 _ shapeCasts_S16_S16x1 (ix2 q u)) (k0_pay7 x2 (ix2 q u)) = _ + _
  refine congrArg₂ (· + ·) (congrArg₂ Ideal.div ?_ (pay6_apply x2 q u)) (congrArg₂ Ideal.div ?_ (pay7_apply x2 q u))
  · exact (LibKeepdims.shapeCast_a_a1_apply _ _ q u).trans ((pay8_apply x0 x1 x2 q).trans (zero_add _).symm)
  · exact (LibKeepdims.shapeCast_a_a1_apply _ _ q u).trans ((equalSum x0 x1 x2 _ _ _ q).trans (zero_add _).symm)

/-- The same at any index y of the stored block, once rows (y 0) of the loaded blocks are known to be rows r of three
    arrays: the entry is the loss of image r of those arrays. -/
theorem block_row (x0 x1 : Vec Ideal S16x8192 .f32) (x2 : Vec Ideal S16x8192 .i32)
    (ZA ZB : S64x8192.Idx → EReal) (ORD : S64x8192.Idx → BitVec 32) (y : S16x1.Idx) (r : Fin 64)
    (h0 : ∀ (q : Fin 16) (p : Fin 8192), q.val = (y 0).val → x0 (ix2 q p) = ZA (ix2 r p))
    (h1 : ∀ (q : Fin 16) (p : Fin 8192), q.val = (y 0).val → x1 (ix2 q p) = ZB (ix2 r p))
    (h2 : ∀ (q : Fin 16) (p : Fin 8192), q.val = (y 0).val → x2 (ix2 q p) = ORD (ix2 r p)) :
    out0_3 (F := Ideal) x0 x1 x2 y = rowLoss (fun p => ZA (ix2 r p)) (fun p => ZB (ix2 r p)) (fun p => ORD (ix2 r p)) := by
  obtain ⟨q, u, rfl⟩ : ∃ (q : Fin 16) (u : Fin 1), y = ix2 q u := ⟨y 0, y 1, eq_ix2 y⟩
  rw [out_row]
  have e0 : (fun p => x0 (ix2 q p)) = fun p => ZA (ix2 r p) := funext fun p => h0 q p rfl
  have e1 : (fun p => x1 (ix2 q p)) = fun p => ZB (ix2 r p) := funext fun p => h1 q p rfl
  have e2 : (fun p => x2 (ix2 q p)) = fun p => ORD (ix2 r p) := funext fun p => h2 q p rfl
  rw [e0, e1, e2]

end Cert.KernelIdeal.Row

end
-- ==== Proof.KernelArray.lean ====
/-
  From blocks to the array.  The output of the region is a 64 x 1 array written back in four 16 x 1 blocks, block t
  by grid point t, which also loads rows 16 t .. 16 t + 15 of the three 64 x 8192 input arrays.  Here: entry (r, 0)
  of the array after the run is the loss of image r (rowLoss of the Spec) of rows r of the three input arrays as the
  region finds them.

  Row q of the block loaded at point t is row 16 t + q of the array (a block's coordinate is block index times block
  size plus the coordinate inside the block; the index maps send point t to block (t, 0) for every window, decided
  over the four points); so by the row lemma what point t writes back is block t of the column of image losses; the
  four blocks cover the 64 rows (row r is in block r / 16); hence the array ends holding that column.
-/
import proofs.«129835_j20074677141934_1_alg».proof.Proof.Gen.KernelIdeal.Frame
import proofs.«129835_j20074677141934_1_alg».proof.Proof.KernelRow
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.DepthLoss Idealize.ShloMosaic.ValueIdx

variable (m : (ℓ : Loc nD τ sig) → Buf (Elt Ideal) ℓ) (ρ : Dev nD → PrngReg)

/-- The losses of the 64 images as a column, from the two arrays of gathered depths and the array of labels. -/
def lossColumn (ZA ZB : S64x8192.Idx → EReal) (ORD : S64x8192.Idx → BitVec 32) : S64x1.Idx → EReal := fun i =>
  rowLoss (fun p => ZA (ix2 (⟨(i 0).val, (i 0).isLt⟩ : Fin 64) p)) (fun p => ZB (ix2 (⟨(i 0).val, (i 0).isLt⟩ : Fin 64) p))
    (fun p => ORD (ix2 (⟨(i 0).val, (i 0).isLt⟩ : Fin 64) p))

/-- The index maps over the grid: every window is at block (t, 0) when the output window is at block t. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) ≤ 3 ∧ win0_3.index t (1 : Fin 2) = 0 :=
  (by decide +kernel : ∀ t : Fin grid0.N, _)

/-- Every one of the four row blocks is some point's. -/
theorem idx_onto : ∀ b : Fin 4, ∃ t : Fin cfg0.N, win0_3.index t (0 : Fin 2) = b.val :=
  (by decide +kernel : ∀ b : Fin 4, ∃ t : Fin grid0.N, win0_3.index t (0 : Fin 2) = b.val)

/-- Window 0: row q of its block at point t, read off any array A, is row r = 16 t + q of A. -/
theorem read0 (t : Fin cfg0.N) (A : S64x8192.Idx → EReal) (q : Fin 16) (p : Fin 8192) (r : Fin 64)
    (hr : r.val = win0_3.index t (0 : Fin 2) * 16 + q.val) :
    (((cfg0.win 0).blk t).view.read (Elt Ideal) A : Vec Ideal S16x8192 .f32) (ix2 q p) = A (ix2 r p) := by
  obtain ⟨e0, e1, -⟩ := idx_facts t
  rw [View.read_apply]
  show A _ = A _
  congr 1
  funext a
  apply Fin.ext
  match a with
  | ⟨0, _⟩ => show win0_0.index t (0 : Fin 2) * 16 + 1 * q.val = r.val; rw [e0, hr]; omega
  | ⟨1, _⟩ => show win0_0.index t (1 : Fin 2) * 8192 + 1 * p.val = p.val; rw [e1]; omega

/-- Window 1: row q of its block at point t, read off any array A, is row r = 16 t + q of A. -/
theorem read1 (t : Fin cfg0.N) (A : S64x8192.Idx → EReal) (q : Fin 16) (p : Fin 8192) (r : Fin 64)
    (hr : r.val = win0_3.index t (0 : Fin 2) * 16 + q.val) :
    (((cfg0.win 1).blk t).view.read (Elt Ideal) A : Vec Ideal S16x8192 .f32) (ix2 q p) = A (ix2 r p) := by
  obtain ⟨-, -, e0, e1, -⟩ := idx_facts t
  rw [View.read_apply]
  show A _ = A _
  congr 1
  funext a
  apply Fin.ext
  match a with
  | ⟨0, _⟩ => show win0_1.index t (0 : Fin 2) * 16 + 1 * q.val = r.val; rw [e0, hr]; omega
  | ⟨1, _⟩ => show win0_1.index t (1 : Fin 2) * 8192 + 1 * p.val = p.val; rw [e1]; omega

/-- Window 2: row q of its block at point t, read off any array A, is row r = 16 t + q of A. -/
theorem read2 (t : Fin cfg0.N) (A : S64x8192.Idx → BitVec 32) (q : Fin 16) (p : Fin 8192) (r : Fin 64)
    (hr : r.val = win0_3.index t (0 : Fin 2) * 16 + q.val) :
    (((cfg0.win 2).blk t).view.read (Elt Ideal) A : Vec Ideal S16x8192 .i32) (ix2 q p) = A (ix2 r p) := by
  obtain ⟨-, -, -, -, e0, e1, -⟩ := idx_facts t
  rw [View.read_apply]
  show A _ = A _
  congr 1
  funext a
  apply Fin.ext
  match a with
  | ⟨0, _⟩ => show win0_2.index t (0 : Fin 2) * 16 + 1 * q.val = r.val; rw [e0, hr]; omega
  | ⟨1, _⟩ => show win0_2.index t (1 : Fin 2) * 8192 + 1 * p.val = p.val; rw [e1]; omega

/-- What point t writes back is block t of the column of image losses of the three arrays as the region finds them. -/
theorem flushed_eq (c : Dev nD) (t : Fin cfg0.N) :
    (dats m 0 c).flushed 3 t = ((cfg0.win 3).blk t).view.read (Elt Ideal)
      (lossColumn (V m c main_v8) (V m c main_v9) (V m c main_arg5)) := by
  show (cfg0.win 3).cut (grid0.coords t) ((dats m 0 c).after 3 t) = _
  rw [after0_3]
  funext y
  show out0_3 (iblk m c 0 t) (iblk m c 1 t) (iblk m c 2 t) y
      = lossColumn (V m c main_v8) (V m c main_v9) (V m c main_arg5) (((cfg0.win 3).blk t).view.emb y)
  have hr : ((((cfg0.win 3).blk t).view.emb y) 0).val = win0_3.index t (0 : Fin 2) * 16 + (y 0).val := by
    show win0_3.index t (0 : Fin 2) * 16 + 1 * (y 0).val = _
    omega
  unfold lossColumn
  refine Row.block_row (iblk m c 0 t) (iblk m c 1 t) (iblk m c 2 t) (V m c main_v8) (V m c main_v9) (V m c main_arg5) y
    ⟨((((cfg0.win 3).blk t).view.emb y) 0).val, ((((cfg0.win 3).blk t).view.emb y) 0).isLt⟩ ?_ ?_ ?_
  · intro q p hq
    exact read0 t (V m c main_v8) q p _ (by show ((((cfg0.win 3).blk t).view.emb y) 0).val = _; rw [hr, hq])
  · intro q p hq
    exact read1 t (V m c main_v9) q p _ (by show ((((cfg0.win 3).blk t).view.emb y) 0).val = _; rw [hr, hq])
  · intro q p hq
    exact read2 t (V m c main_arg5) q p _ (by show ((((cfg0.win 3).blk t).view.emb y) 0).val = _; rw [hr, hq])

/-- An index of the output array is in point t's block iff each coordinate is in the block's range on its axis. -/
theorem mem_blk (t : Fin cfg0.N) (i : S64x1.Idx) :
    i ∈ ((cfg0.win 3).blk t).view.set ↔ ∀ a : Fin 2, win0_3.index t a * S16x1.size a ≤ (i a).val
      ∧ (i a).val < win0_3.index t a * S16x1.size a + S16x1.size a := by
  show i ∈ ((View.whole main_v10).slice (win0_3.rect t)).set ↔ _
  rw [View.set_slice_whole, Rect.mem_set_unit]
  exact Iff.rfl

/-- The four blocks cover the array: row r is in block r / 16. -/
theorem cover (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  obtain ⟨t, ht⟩ := idx_onto ⟨(i 0).val / 16, by omega⟩
  obtain ⟨-, -, -, -, -, -, -, e7⟩ := idx_facts t
  have ht' : win0_3.index t (0 : Fin 2) = (i 0).val / 16 := ht
  refine ⟨t, flush0_3 t, ?_⟩
  rw [mem_blk]
  intro a
  match a with
  | ⟨0, _⟩ =>
    show win0_3.index t (0 : Fin 2) * 16 ≤ (i 0).val ∧ (i 0).val < win0_3.index t (0 : Fin 2) * 16 + 16
    rw [ht']; omega
  | ⟨1, _⟩ =>
    show win0_3.index t (1 : Fin 2) * 1 ≤ (i 1).val ∧ (i 1).val < win0_3.index t (1 : Fin 2) * 1 + 1
    rw [e7]; omega

/-- So the output array ends holding the column of image losses. -/
theorem final (c : Dev nD) :
    (dats m 0 c).arrAt 3 cfg0.N = lossColumn (V m c main_v8) (V m c main_v9) (V m c main_arg5) :=
  (dats m 0 c).arrAt_eq_of_cover 3 _ (fun t _ => flushed_eq m c t) cover

end Cert.KernelIdeal.Arr

end
-- ==== Proof.KernelTail.lean ====
/-
  The kernel program's result.  After the region the host reshapes the 64 x 1 column of image losses to a 64-vector,
  sums it from zero and divides by 64 (the literal 0x42800000): the mean over the images.  Here: the generated frame
  run, whose post holds the output array at what the write-backs leave and every other buffer at what the host lines
  after the region compute from that, is restated with the result buffer at the mean of the column of image losses
  (the column as one function of the three arrays the region finds: KernelArray) and the arguments unchanged.
-/
import proofs.«129835_j20074677141934_1_alg».proof.Proof.Gen.KernelIdeal.Frame
import proofs.«129835_j20074677141934_1_alg».proof.Proof.KernelArray
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.DepthLoss Idealize.ShloMosaic.ValueIdx

variable (m : (ℓ : Loc nD τ sig) → Buf (Elt Ideal) ℓ) (ρ : Dev nD → PrngReg)

/-- The mean of 64 numbers as the host computes it: their sum from zero, divided by 64. -/
def meanOf (v : FVec Ideal S64 .f32) : FVec Ideal S_ .f32 :=
  Host.divf (F := Ideal) (Host.reduceAdd (F := Ideal) v (constant (F := Ideal) S_ .f32 0x00000000#32) reducesTo_S64_S_d0 h_S_)
    (constant (F := Ideal) S_ .f32 0x42800000#32)

/-- The column of image losses as a vector. -/
def lossVec (c : Dev nD) : FVec Ideal S64 .f32 :=
  shapeCast S64 (Arr.lossColumn (V m c main_v8) (V m c main_v9) (V m c main_arg5)) shapeCasts_S64x1_S64

/-- What the host lines after the region leave in the result buffer. -/
theorem tail_eq (c : Dev nD) :
    Pipeline.afterTail₀ cfgs (dats m) 0 (V0 m) [hostOps1] c main_v13 = meanOf (lossVec m c) := by
  unfold Pipeline.afterTail₀
  show StableHlo.after hostOps1 _ (Proc.devRef .tc main_v13) = _
  after_results
  have hw : Pipeline.withArrays (cfgs 0).spec c (V0 m c) (fun w => (dats m 0 c).arrAt w (cfgs 0).N) (Proc.devRef .tc main_v10)
      = Arr.lossColumn (V m c main_v8) (V m c main_v9) (V m c main_arg5) :=
    (Pipeline.withArrays_arr spec0 launch0.win.arr_inj c _ _ 3).trans (Arr.final m c)
  rw [hw]
  rfl

/-- The run of the kernel program, read: the result at the mean of the image losses, the arguments unchanged. -/
theorem run : θ_run defs (onTc (τ := τ) (main (F := Ideal))) ⟨m, fun _ => 0, ρ⟩ (fun r => ∀ c : Dev nD,
      r.2.mem ((c.tc : Thread nD τ).loc main_v13) = meanOf (lossVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 2).trans (((dats m 0 c).arrAt_in 2 rfl _).trans ((A_eq m c 2).trans (V_main_arg5 m c)))⟩)
    (run_main m ρ)

end Cert.KernelIdeal.Tail

end
-- ==== Proof.RefFormula.lean ====
/-
  The reference's formula.  From the two 64 x 8192 arrays of gathered depths and the 64 x 8192 array of labels the
  reference computes, image by image: the masks of the ranked and of the equal pairs; the cost of a ranked pair by the
  stable softplus with its guard, the label negated by a negation; the sum over the pairs of the masked costs, from
  zero; the number of ranked pairs as the 32-bit integer sum of the mask, converted to a float; the quotient; the same
  for the equal pairs with the squared difference as cost; the sum of the two quotients.  Then the mean over the 64
  images: their sum from zero, divided by 64.

  Here this is written as one vector-level definition (lossVec, meanOf), operation for operation as the reference
  applies them, and read at image r: it is rowLoss (the Spec) of rows r of the three arrays.  A host sum along the
  pairs' axis at image r is the initial value plus the sum over p of the entries (r, p); the integer sum of an
  indicator is the fold of 32-bit addition over the same p, which is the count because it cannot wrap.
-/
import proofs.«129835_j20074677141934_1_alg».proof.Proof.Gen.ReferenceIdeal
import proofs.«129835_j20074677141934_1_alg».proof.Proof.Spec
import Idealize.ShloMosaic.Lib.ValueIdx
import Idealize.ShloMosaic.Lib.IdealHost
import Idealize.ShloMosaic.Lib.IndicatorCount
import Idealize.ShloMosaic.PureOps.Ideal.Laws
import Idealize.ShloMosaic.PureOps.Reduce

noncomputable section

namespace Cert.ReferenceIdeal.Formula

open Cert.ReferenceIdeal Cert.ReferenceIdeal.Gen Cert.DepthLoss Idealize.ShloMosaic Idealize.ShloMosaic.ValueIdx

/-- The float zero as a rank-0 tensor, and broadcast over the pairs. -/
def zero : FVec Ideal S_ .f32 := constant (F := Ideal) S_ .f32 0x00000000#32
def zeros : FVec Ideal S64x8192 .f32 := broadcastInDim S64x8192 ![] bcast_S_S64x8192 zero
/-- The integers 2 and 0 broadcast over the pairs. -/
def twos : IVec S64x8192 32 := broadcastInDim S64x8192 ![] bcast_S_S64x8192 (constantI S_ 32 2#32)
def noughts : IVec S64x8192 32 := broadcastInDim S64x8192 ![] bcast_S_S64x8192 (constantI S_ 32 0#32)

/-- The masks of the ranked and of the equal pairs. -/
def rankedV (ORD : IVec S64x8192 32) : IVec S64x8192 1 := andi (cmpi .ne ORD twos) (cmpi .ne ORD noughts)
def equalV (ORD : IVec S64x8192 32) : IVec S64x8192 1 := andi (cmpi .ne ORD twos) (cmpi .eq ORD noughts)

/-- The softplus argument: minus the label times the difference of depths. -/
def argV (ZA ZB : FVec Ideal S64x8192 .f32) (ORD : IVec S64x8192 32) : FVec Ideal S64x8192 .f32 :=
  mulf (Host.negf (F := Ideal) (sitofp (F := Ideal) .f32 ORD)) (subf ZA ZB)

/-- The stable softplus of a vector, with its guard. -/
def softplusV (x : FVec Ideal S64x8192 .f32) : FVec Ideal S64x8192 .f32 :=
  select (cmpf .une (subf x zeros) (subf x zeros)) (addf x zeros)
    (addf (maximumf x zeros)
      (Host.log1p (F := Ideal) (Host.exp (F := Ideal) (Host.negf (F := Ideal) (Host.absf (F := Ideal) (subf x zeros))))))

/-- A masked sum over the pairs of each image, from zero. -/
def maskedSum (b : IVec S64x8192 1) (v : FVec Ideal S64x8192 .f32) : FVec Ideal S64 .f32 :=
  Host.reduceAdd (F := Ideal) (select b v (broadcastInDim S64x8192 ![] bcast_S_S64x8192 (id zero))) zero
    reducesTo_S64x8192_S64_d1 h_S_

/-- The number of set bits of a mask in each image: the 32-bit integer sum, converted. -/
def countV (b : IVec S64x8192 1) : FVec Ideal S64 .f32 :=
  sitofp (F := Ideal) .f32
    (Host.reduce IntOp.addi (extui 32 b natLt_1_32) (constantI S_ 32 0#32) reducesTo_S64x8192_S64_d1 h_S_)

/-- The loss of each image. -/
def lossVec (ZA ZB : FVec Ideal S64x8192 .f32) (ORD : IVec S64x8192 32) : FVec Ideal S64 .f32 :=
  addf (Host.divf (F := Ideal) (maskedSum (rankedV ORD) (softplusV (argV ZA ZB ORD))) (countV (rankedV ORD)))
    (Host.divf (F := Ideal) (maskedSum (equalV ORD) (mulf (subf ZA ZB) (subf ZA ZB))) (countV (equalV ORD)))

/-- The mean of 64 numbers as the host computes it: their sum from zero, divided by 64. -/
def meanOf (v : FVec Ideal S64 .f32) : FVec Ideal S_ .f32 :=
  Host.divf (F := Ideal) (Host.reduceAdd (F := Ideal) v zero reducesTo_S64_S_d0 h_S_) (constant (F := Ideal) S_ .f32 0x42800000#32)

/-- A host sum over the pairs of image r: zero plus the sum over p of the entries (r, p). -/
theorem hostSum (v : FVec Ideal S64x8192 .f32) (r : Fin 64) :
    Host.reduceAdd (F := Ideal) v zero reducesTo_S64x8192_S64_d1 h_S_ (ix1 r) = 0 + ∑ p : Fin 8192, v (ix2 r p) := by
  rw [hostReduceAdd_apply, Ideal.hostReduceAdd_single reducesTo_S64x8192_S64_d1 (by decide)]
  refine congrArg₂ (· + ·) ?_ (Finset.sum_congr rfl fun k _ =>
    congrArg v (funext fun a => Fin.ext (by match a with | ⟨0, _⟩ => rfl | ⟨1, _⟩ => rfl)))
  show Ideal.ofBits .f32 0x00000000#32 = 0
  exact Ideal.ofBits_zero_f32

/-- The converted integer sum of a mask over the pairs of image r is the number of its set bits. -/
theorem hostCount (b : IVec S64x8192 1) (r : Fin 64) : countV b (ix1 r) = count fun p : Fin 8192 => b (ix2 r p) := by
  unfold countV
  show (((((Host.reduce IntOp.addi (extui 32 b natLt_1_32) (constantI S_ 32 0#32) reducesTo_S64x8192_S64_d1 h_S_) (ix1 r)).toInt : ℤ) : ℝ) : EReal) = _
  have hR : S64x8192.Reduces [1] S64 := by decide
  rw [Host.reduce_eq_fold_single IntOp.addi (extui 32 b natLt_1_32) (constantI S_ 32 0#32) reducesTo_S64x8192_S64_d1 hR h_S_ (ix1 r)]
  have e : (extui 32 b natLt_1_32 ∘ hR.lift (ix1 r)) = fun p : Fin 8192 => (b (ix2 r p)).setWidth 32 :=
    funext fun p => congrArg (fun i => (b i).setWidth 32)
      (funext fun a => Fin.ext (by match a with | ⟨0, _⟩ => rfl | ⟨1, _⟩ => rfl))
  rw [e]
  exact toInt_fold_indicator (by rw [Fintype.card_fin]; norm_num) fun p : Fin 8192 => b (ix2 r p)

/-- Image r of the reference's formula is the loss of the image whose rows are rows r of the three arrays. -/
theorem lossVec_apply (ZA ZB : FVec Ideal S64x8192 .f32) (ORD : IVec S64x8192 32) (r : Fin 64) :
    lossVec ZA ZB ORD (ix1 r)
      = rowLoss (fun p => ZA (ix2 r p)) (fun p => ZB (ix2 r p)) (fun p => ORD (ix2 r p)) := by
  unfold lossVec rowLoss
  show Ideal.div (maskedSum (rankedV ORD) (softplusV (argV ZA ZB ORD)) (ix1 r)) (countV (rankedV ORD) (ix1 r))
      + Ideal.div (maskedSum (equalV ORD) (mulf (subf ZA ZB) (subf ZA ZB)) (ix1 r)) (countV (equalV ORD) (ix1 r)) = _ + _
  refine congrArg₂ (· + ·) (congrArg₂ Ideal.div ?_ (hostCount _ r)) (congrArg₂ Ideal.div ?_ (hostCount _ r))
  · unfold maskedSum
    refine (hostSum _ r).trans (congrArg (0 + ·) (Finset.sum_congr rfl fun p _ => ?_))
    show Scalar.select (ranked (ORD (ix2 r p)))
        (guardNeg (Ideal.ofBits .f32 0x00000000#32) (-(label (ORD (ix2 r p))) * (ZA (ix2 r p) - ZB (ix2 r p))))
        (Ideal.ofBits .f32 0x00000000#32) = _
    rw [Ideal.ofBits_zero_f32, rankCost_neg]
  · unfold maskedSum
    refine (hostSum _ r).trans (congrArg (0 + ·) (Finset.sum_congr rfl fun p _ => ?_))
    show Scalar.select (equal (ORD (ix2 r p))) (equalCost (ZA (ix2 r p)) (ZB (ix2 r p))) (Ideal.ofBits .f32 0x00000000#32) = _
    rw [Ideal.ofBits_zero_f32]

end Cert.ReferenceIdeal.Formula

end
-- ==== Proof.RefPost.lean ====
/-
  The reference's operations in two stretches.  The first 54 operations compute the two arrays of gathered depths
  (two reshapes, the pixel indices, two gathers with their bounds masks); the last 57 compute the result from those
  two arrays and the labels.  Running a list of operations is running a first stretch and then the rest from what the
  first stretch leaves (after_append).  Here: over ANY buffer contents W, the last 57 operations leave in the result
  buffer the mean of the images' losses (the reference's formula) of what W holds in the two gathered buffers and in
  the labels' buffer.  The whole composed term of the 111 operations is never formed.
-/
import proofs.«129835_j20074677141934_1_alg».proof.Proof.RefRun
import proofs.«129835_j20074677141934_1_alg».proof.Proof.RefFormula

noncomputable section

namespace Cert.ReferenceIdeal.Post

open Cert.ReferenceIdeal Cert.ReferenceIdeal.Gen Cert.ReferenceIdeal.ValueP Cert.ReferenceIdeal.Formula
open Idealize.ShloMosaic Idealize.ShloMosaic.TcCoe Idealize.SL.Sem Idealize.ShloMosaic.StableHlo

/-- Operations run one stretch after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- The result after the last 57 operations, from any contents W. -/
theorem post_eq (W : Valuation τ sig (Elt Ideal)) :
    after ((ops (F := Ideal)).drop 54) W (Proc.devRef .tc main_v38)
      = meanOf (lossVec (W (Proc.devRef .tc main_v5)) (W (Proc.devRef .tc main_v9)) (W (Proc.devRef .tc main_arg5))) := by
  simp only [ops, List.drop_succ_cons, List.drop_zero]
  after_results_simp
  rfl

end Cert.ReferenceIdeal.Post

end
-- ==== Proof.Bridge.lean ====
/-
  The two programs meet.  Both start with the same host operations: the depth maps reshaped to 64 x 307200, the pixel
  indices x * 640 + y, and for each of the two pixels of the pairs a gather along the pixels with negative indices
  wrapped and out-of-range ones filled.  The kernel program runs them before its region (which then finds the two
  arrays of gathered depths in its first two windows); the reference runs them as its first 54 operations, in a
  slightly different order and into differently named buffers.  So from contents that agree on the arguments the
  reference's two gathered buffers hold what the region finds in its two windows (gathered_a, gathered_b): the chain
  of gathers is carried as it is and never opened.  The labels are an argument on both sides.

  With that, the two results are one number: the kernel's column of image losses, reshaped to a vector, is the
  reference's vector of image losses, since entry r of either is rowLoss of rows r (lossVec_eq); and the two programs
  take the same mean of it.
-/
import proofs.«129835_j20074677141934_1_alg».proof.Proof.KernelTail
import proofs.«129835_j20074677141934_1_alg».proof.Proof.RefPost

noncomputable section

namespace Cert.Bridge

open Idealize.ShloMosaic Idealize.ShloMosaic.TcCoe Idealize.SL.Sem Idealize.ShloMosaic.StableHlo Idealize.ShloMosaic.ValueIdx

/-- The kernel program's host operations before its region. -/
abbrev kerPre : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]
/-- The reference's first 54 operations. -/
abbrev refPre : List (HloOp Cert.ReferenceIdeal.τ Cert.ReferenceIdeal.sig (Elt Ideal)) := (Cert.ReferenceIdeal.ValueP.ops (F := Ideal)).take 54

/-- The depths gathered at the first pixels: the reference's buffer holds what the region's first window finds. -/
theorem gathered_a (Vr : Valuation Cert.ReferenceIdeal.τ Cert.ReferenceIdeal.sig (Elt Ideal)) (Vk : Valuation Cert.KernelIdeal.τ Cert.KernelIdeal.sig (Elt Ideal))
    (h0 : (Vr (Proc.devRef .tc Cert.ReferenceIdeal.main_arg0) : FVec Ideal Cert.KernelIdeal.S64x1x480x640 .f32) = Vk (Proc.devRef .tc Cert.KernelIdeal.main_arg0))
    (h1 : (Vr (Proc.devRef .tc Cert.ReferenceIdeal.main_arg1) : IVec Cert.KernelIdeal.S64x8192 32) = Vk (Proc.devRef .tc Cert.KernelIdeal.main_arg1))
    (h2 : (Vr (Proc.devRef .tc Cert.ReferenceIdeal.main_arg2) : IVec Cert.KernelIdeal.S64x8192 32) = Vk (Proc.devRef .tc Cert.KernelIdeal.main_arg2)) :
    (after refPre Vr (Proc.devRef .tc Cert.ReferenceIdeal.main_v5) : FVec Ideal Cert.KernelIdeal.S64x8192 .f32)
      = after kerPre Vk (Proc.devRef .tc Cert.KernelIdeal.main_v8) := by
  simp only [refPre, kerPre, Cert.ReferenceIdeal.ValueP.ops, List.take_succ_cons, List.take_zero, Cert.KernelIdeal.Gen.hostOps0, Cert.KernelIdeal.Gen.hostOps0_1,
    Cert.KernelIdeal.Gen.hostOps0_2, List.flatten_cons, List.flatten_nil, List.append_nil, List.cons_append, List.nil_append]
  after_results_simp
  rw [h0, h1, h2]
  rfl

/-- The depths gathered at the second pixels: the reference's buffer holds what the region's second window finds. -/
theorem gathered_b (Vr : Valuation Cert.ReferenceIdeal.τ Cert.ReferenceIdeal.sig (Elt Ideal)) (Vk : Valuation Cert.KernelIdeal.τ Cert.KernelIdeal.sig (Elt Ideal))
    (h0 : (Vr (Proc.devRef .tc Cert.ReferenceIdeal.main_arg0) : FVec Ideal Cert.KernelIdeal.S64x1x480x640 .f32) = Vk (Proc.devRef .tc Cert.KernelIdeal.main_arg0))
    (h3 : (Vr (Proc.devRef .tc Cert.ReferenceIdeal.main_arg3) : IVec Cert.KernelIdeal.S64x8192 32) = Vk (Proc.devRef .tc Cert.KernelIdeal.main_arg3))
    (h4 : (Vr (Proc.devRef .tc Cert.ReferenceIdeal.main_arg4) : IVec Cert.KernelIdeal.S64x8192 32) = Vk (Proc.devRef .tc Cert.KernelIdeal.main_arg4)) :
    (after refPre Vr (Proc.devRef .tc Cert.ReferenceIdeal.main_v9) : FVec Ideal Cert.KernelIdeal.S64x8192 .f32)
      = after kerPre Vk (Proc.devRef .tc Cert.KernelIdeal.main_v9) := by
  simp only [refPre, kerPre, Cert.ReferenceIdeal.ValueP.ops, List.take_succ_cons, List.take_zero, Cert.KernelIdeal.Gen.hostOps0, Cert.KernelIdeal.Gen.hostOps0_1,
    Cert.KernelIdeal.Gen.hostOps0_2, List.flatten_cons, List.flatten_nil, List.append_nil, List.cons_append, List.nil_append]
  after_results_simp
  rw [h0, h3, h4]
  rfl

/-- The first stretch does not write the labels. -/
theorem labels_kept (Vr : Valuation Cert.ReferenceIdeal.τ Cert.ReferenceIdeal.sig (Elt Ideal)) :
    after refPre Vr (Proc.devRef .tc Cert.ReferenceIdeal.main_arg5) = Vr (Proc.devRef .tc Cert.ReferenceIdeal.main_arg5) := by
  simp only [refPre, Cert.ReferenceIdeal.ValueP.ops, List.take_succ_cons, List.take_zero]
  after_results_simp

/-- The kernel's column of image losses, as a vector, is the reference's vector of image losses: entry r of either is
    the loss of the image whose rows are rows r of the three arrays. -/
theorem lossVec_eq (ZA ZB : FVec Ideal Cert.KernelIdeal.S64x8192 .f32) (ORD : IVec Cert.KernelIdeal.S64x8192 32)
    (h : Cert.KernelIdeal.S64x1.ShapeCasts Cert.KernelIdeal.S64) :
    shapeCast Cert.KernelIdeal.S64 (Cert.KernelIdeal.Arr.lossColumn ZA ZB ORD) h = Cert.ReferenceIdeal.Formula.lossVec ZA ZB ORD := by
  funext j
  obtain ⟨r, rfl⟩ : ∃ r : Fin 64, j = ix1 r := ⟨j 0, eq_ix1 j⟩
  rw [Cert.ReferenceIdeal.Formula.lossVec_apply]
  refine (shapeCast_apply _ h (ix1 r) (ix2 r (0 : Fin 1)) ?_).trans rfl
  rw [Shape.rowMajor_val_two, Shape.rowMajor_val_one]
  show r.val * 1 + 0 = r.val
  omega

/-- The two programs take the same mean. -/
theorem mean_eq (v : FVec Ideal Cert.KernelIdeal.S64 .f32) : Cert.KernelIdeal.Tail.meanOf v = Cert.ReferenceIdeal.Formula.meanOf v := rfl

/-- The reference's result is the kernel program's: from memories that agree on the arguments, what the reference's 111
    operations leave in its result buffer is the mean of the image losses that the kernel program's run ends with. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (after (Cert.ReferenceIdeal.ValueP.ops (F := Ideal)) (launchContents m' c) (Proc.devRef .tc Cert.ReferenceIdeal.main_v38) : FVec Ideal Cert.KernelIdeal.S_ .f32)
      = Cert.KernelIdeal.Tail.meanOf (Cert.KernelIdeal.Tail.lossVec m c) := by
  have hs : Cert.ReferenceIdeal.ValueP.ops (F := Ideal) = refPre ++ (Cert.ReferenceIdeal.ValueP.ops (F := Ideal)).drop 54 := (List.take_append_drop 54 _).symm
  rw [hs, Cert.ReferenceIdeal.Post.after_append, Cert.ReferenceIdeal.Post.post_eq]
  rw [gathered_a (launchContents m' c) (fun b => m (c, b)) a0 a1 a2, gathered_b (launchContents m' c) (fun b => m (c, b)) a0 a3 a4,
    labels_kept]
  unfold Cert.KernelIdeal.Tail.lossVec
  rw [lossVec_eq, mean_eq]
  have e5 : (launchContents m' c (Proc.devRef .tc Cert.ReferenceIdeal.main_arg5) : IVec Cert.KernelIdeal.S64x8192 32) = Cert.KernelIdeal.Gen.V m c Cert.KernelIdeal.main_arg5 :=
    a5.trans (Cert.KernelIdeal.Gen.V_main_arg5 m c).symm
  rw [e5]

end Cert.Bridge

end
-- ==== Proof.lean ====
/-
  The ordinal relative-depth loss: a kernel and its jnp reference compute one number on the extended reals.

  Both programs take a batch of 64 depth maps (480 x 640) and, per image, 8192 pairs of pixels with an ordinal label.
  Both gather the depths at the pairs' pixels on the host (the depth maps reshaped to 64 x 307200, the pixel indices
  x * 640 + y, a gather with negative indices wrapped and out-of-range ones filled), and both return the mean over the
  images of: the mean over the ranked pairs (label neither 0 nor 2) of softplus (-label * (za - zb)) plus the mean over
  the equal pairs (label 0) of (za - zb)^2.

  The kernel computes the per-image losses in a region over a grid of four points, sixteen images a point, from the
  two gathered arrays and the labels, and stores them as a 64 x 1 column; the host reshapes the column to a vector,
  sums it and divides by 64.  The reference computes the same on the host, whole arrays at a time.  At the ideal
  instance the two differ only in spelling: the kernel negates by subtracting from zero; its softplus guard asks
  ordered-and-different where the reference's asks unordered-or-different (both are false of every extended real);
  it counts pairs by summing the masks as floats where the reference sums them as 32-bit integers (no wrap: 8192 is far
  below 2^31) and converts; it keeps each image's sums as a one-entry row of a column where the reference keeps a
  vector.  Sums are finite sums of extended reals on both sides, so their order does not matter, and no step needs a
  finite input: the precondition is not used.  The ideal pass rewrote nothing, so the kernel's idealization is its
  own text and that conjunct is trivial.

  The modules: Spec (one image's loss, and the three spellings reconciled), KernelRow (one row of one block),
  KernelArray (the blocks cover the column), KernelTail (the host lines after the region, and the kernel program's
  run read), RefRun (the reference's run), RefFormula (the reference's formula read at an image), RefPost (the
  reference's operations in two stretches), Bridge (the shared gathers, and the two results are one).
-/
import proofs.«129835_j20074677141934_1_alg».proof.Defs
import proofs.«129835_j20074677141934_1_alg».proof.Proof.Gen.Kernel
import proofs.«129835_j20074677141934_1_alg».proof.Proof.Gen.Kernel.Skeleton
import proofs.«129835_j20074677141934_1_alg».proof.Proof.Gen.Kernel.Launch
import proofs.«129835_j20074677141934_1_alg».proof.Proof.Gen.Kernel.Points
import proofs.«129835_j20074677141934_1_alg».proof.Proof.Gen.Kernel.Frame
import proofs.«129835_j20074677141934_1_alg».proof.Proof.Gen.KernelIdeal
import proofs.«129835_j20074677141934_1_alg».proof.Proof.Gen.KernelIdeal.Skeleton
import proofs.«129835_j20074677141934_1_alg».proof.Proof.Gen.KernelIdeal.Launch
import proofs.«129835_j20074677141934_1_alg».proof.Proof.Gen.KernelIdeal.Points
import proofs.«129835_j20074677141934_1_alg».proof.Proof.Gen.KernelIdeal.Frame
import proofs.«129835_j20074677141934_1_alg».proof.Proof.Gen.ReferenceIdeal
import proofs.«129835_j20074677141934_1_alg».proof.Proof.Gen.Pre_finite_inputs
import proofs.«129835_j20074677141934_1_alg».proof.Proof.RefRun
import proofs.«129835_j20074677141934_1_alg».proof.Proof.KernelTail
import proofs.«129835_j20074677141934_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments both programs run, and both end with the mean over the images of the
    images' losses in their result buffer: the kernel program by its run read through the region and the host lines
    after it, the reference by its run and the equation between the two results. -/
theorem algebraic : Cert.algebraic_KernelIdeal_ReferenceIdeal := by
  intro m ρ m' ρ' _ hagree
  refine ⟨fun c => Cert.KernelIdeal.Tail.meanOf (Cert.KernelIdeal.Tail.lossVec m c), Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5⟩ := hagree c
  exact Cert.Bridge.ref_result m m' c a0 a1 a2 a3 a4 a5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
